-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128x128 .f32) (main_arg3 : FVec F S128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 36
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S128x128, .f32⟩
  | .hbm, ⟨33, _⟩ => ⟨S128x128, .f32⟩
  | .hbm, ⟨34, _⟩ => ⟨S1x128, .f32⟩
  | .hbm, ⟨35, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S128x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageSpec.lean ====
/-
  The layer, as mathematics.

  A node `p` has a feature row `feat p`, the sum `ns p` of its in-neighbours' feature rows, and `dmax p`, its
  in-degree raised to at least one. The layer's output at node `p`, channel `q` is

      ∑ₖ feat p k · Ws k q  +  ∑ₖ (ns p k / dmax p) · Wn k q  +  bias q          (`meanProj`).

  The same number is reached by first scaling the neighbour sum with the reciprocal `1 / dmax p` kept in a column
  (`scaledProj`): `x · (1 / d) = x / d` on the extended reals whenever `1 ≤ d`, because then `d` is not zero and
  both sides are `x · d⁻¹`; no finiteness of `x` is needed. A block of rows of the scaled form depends only on the
  matching rows of its operands (`scaledProj_rows`).
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- Self projection plus the projection of the neighbour MEAN plus the bias, at node `p` and channel `q`. -/
def meanProj {a : ℕ} (feat ns : (⟨2, ![a, 128]⟩ : Shape).Idx → EReal) (dmax : (⟨1, ![a]⟩ : Shape).Idx → EReal)
    (Ws Wn : (⟨2, ![128, 128]⟩ : Shape).Idx → EReal) (bias : (⟨1, ![128]⟩ : Shape).Idx → EReal)
    (p : Fin a) (q : Fin 128) : EReal :=
  (∑ k : Fin 128, feat (ix2 p k) * Ws (ix2 k q)
    + ∑ k : Fin 128, Ideal.div (ns (ix2 p k)) (dmax (ix1 p)) * Wn (ix2 k q)) + bias (ix1 q)

/-- The same with the neighbour sum SCALED by a column `inv` of reciprocals and the bias held as a one-row matrix. -/
def scaledProj {a : ℕ} (feat ns : (⟨2, ![a, 128]⟩ : Shape).Idx → EReal) (inv : (⟨2, ![a, 1]⟩ : Shape).Idx → EReal)
    (Ws Wn : (⟨2, ![128, 128]⟩ : Shape).Idx → EReal) (b2 : (⟨2, ![1, 128]⟩ : Shape).Idx → EReal)
    (p : Fin a) (q : Fin 128) : EReal :=
  (∑ k : Fin 128, feat (ix2 p k) * Ws (ix2 k q)
    + ∑ k : Fin 128, (ns (ix2 p k) * inv (ix2 p (0 : Fin 1))) * Wn (ix2 k q)) + b2 (ix2 (0 : Fin 1) q)

/-- Scaling by the reciprocal of a number that is at least one is dividing by it. -/
theorem mul_recip (x d : EReal) (hd : 1 ≤ d) : x * Ideal.div 1 d = Ideal.div x d := by
  have h01 : (0 : EReal) < 1 := by exact_mod_cast (zero_lt_one : (0 : ℝ) < 1)
  have hd0 : d ≠ 0 := (lt_of_lt_of_le h01 hd).ne'
  rw [Ideal.div, Ideal.div, if_neg hd0, if_neg hd0, one_mul]

/-- The scaled form is the mean form when the column holds the reciprocals of numbers that are at least one. -/
theorem scaled_eq_mean {a : ℕ} (feat ns : (⟨2, ![a, 128]⟩ : Shape).Idx → EReal) (inv : (⟨2, ![a, 1]⟩ : Shape).Idx → EReal)
    (dmax : (⟨1, ![a]⟩ : Shape).Idx → EReal) (Ws Wn : (⟨2, ![128, 128]⟩ : Shape).Idx → EReal)
    (b2 : (⟨2, ![1, 128]⟩ : Shape).Idx → EReal) (bias : (⟨1, ![128]⟩ : Shape).Idx → EReal) (p : Fin a) (q : Fin 128)
    (hinv : inv (ix2 p (0 : Fin 1)) = Ideal.div 1 (dmax (ix1 p))) (hd : 1 ≤ dmax (ix1 p))
    (hb : b2 (ix2 (0 : Fin 1) q) = bias (ix1 q)) :
    scaledProj feat ns inv Ws Wn b2 p q = meanProj feat ns dmax Ws Wn bias p q := by
  unfold scaledProj meanProj
  rw [hinv, hb]
  simp only [mul_recip _ _ hd]

/-- Row `p` of a block is row `P` of the whole when the block's operand rows are the whole's and the resident
    operands are the same entries. -/
theorem scaledProj_rows {a A : ℕ} (featB nsB : (⟨2, ![a, 128]⟩ : Shape).Idx → EReal) (invB : (⟨2, ![a, 1]⟩ : Shape).Idx → EReal)
    (featA nsA : (⟨2, ![A, 128]⟩ : Shape).Idx → EReal) (invA : (⟨2, ![A, 1]⟩ : Shape).Idx → EReal)
    (WsB WnB WsA WnA : (⟨2, ![128, 128]⟩ : Shape).Idx → EReal) (bB bA : (⟨2, ![1, 128]⟩ : Shape).Idx → EReal)
    (p : Fin a) (P : Fin A) (q : Fin 128)
    (hf : ∀ k : Fin 128, featB (ix2 p k) = featA (ix2 P k)) (hn : ∀ k : Fin 128, nsB (ix2 p k) = nsA (ix2 P k))
    (hi : invB (ix2 p (0 : Fin 1)) = invA (ix2 P (0 : Fin 1)))
    (hws : ∀ k : Fin 128, WsB (ix2 k q) = WsA (ix2 k q)) (hwn : ∀ k : Fin 128, WnB (ix2 k q) = WnA (ix2 k q))
    (hb : bB (ix2 (0 : Fin 1) q) = bA (ix2 (0 : Fin 1) q)) :
    scaledProj featB nsB invB WsB WnB bB p q = scaledProj featA nsA invA WsA WnA bA P q := by
  unfold scaledProj
  simp only [hf, hn, hi, hws, hwn, hb]

end Cert.Sage

end
-- ==== Proof.LibKeepDims.lean ====
/-
  Column forms of a kept reduced axis, read at an index given by coordinates.

  A row statistic of an `[a, b]` block (a mean, a variance) is computed as a lane sum `[a, b] → [a]`, viewed as a
  column `[a] → [a, 1]`, and spread back over the lanes `[a, 1] → [a, b]`. Here each of the three steps is read at an
  index written by its coordinates: the column view at `(i, u)` is the vector at `i`; the spread column at `(p, c)` is
  the column at `(p, 0)`; and, at the ideal values, the lane sum at `p` is `∑ k : Fin b` of row `p`. Also one column
  of a matrix (a unit-width slice along axis 1) read at `(p, u)`.
-/
import Idealize.ShloMosaic.PureOps.Ideal
import Idealize.ShloMosaic.PureOps.Ideal.Laws
import Idealize.ShloMosaic.Lib.ValueIdx
import Idealize.ShloMosaic.Lib.ValueLayout

noncomputable section

open scoped BigOperators

namespace Idealize.ShloMosaic.KeepDims

open Idealize.ShloMosaic Idealize.ShloMosaic.ValueIdx

variable {α : Type}

/-! ## The column view of a vector, and a column spread over the lanes -/

/-- An `[a]` vector viewed as a column `[a, 1]` reads, at `(i, u)`, the vector at `i`, whatever the unit coordinate
    `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Column `o` of an `[a, n]` matrix, cut out as an `[a, 1]` slice, reads at `(p, u)` the matrix at `(p, o)`. -/
theorem column_apply {a n : ℕ} (o : ℕ) (X : (⟨2, ![a, n]⟩ : Shape).Idx → α)
    (h : (⟨2, ![a, n]⟩ : Shape).Slices ![0, o] ⟨2, ![a, 1]⟩) (p : Fin a) (u : Fin 1) (k : Fin n) (hk : k.val = o) :
    extractStridedSlice ⟨2, ![a, 1]⟩ ![0, o] X h (ix2 p u) = X (ix2 p k) :=
  slice2_axis1_apply o X h p u k (by have : u.val = 0 := by omega
                                     omega)

/-! ## The lane sum of a block, at the ideal values -/

/-- The sum over the lanes (axis 1) of an `[a, b]` block, read at row `p`, is `∑ k : Fin b` of the block's row `p`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext ax
  match ax with
  | ⟨0, _⟩ => exact Fin.ext rfl
  | ⟨1, _⟩ => exact Fin.ext rfl

end Idealize.ShloMosaic.KeepDims

end
-- ==== Proof.SagePayload.lean ====
/-
  What the kernel body computes from its loaded blocks, read at one entry.

  The body scales the block of neighbour sums by the column of reciprocals, multiplies the feature block and the scaled
  block with the two resident weight matrices (each product into a zero accumulator, so just the sum over the 128
  contracted channels), adds the two products and then the bias row spread over the block's rows. Changes of float
  format are the identity on the extended reals. At row `p`, channel `q` of the block this is `scaledProj`.
-/
import proofs.«128249_j7086696039141_2_alg».proof.Proof.Gen.KernelIdeal.Skeleton
import proofs.«128249_j7086696039141_2_alg».proof.Proof.SageSpec
import proofs.«128249_j7086696039141_2_alg».proof.Proof.LibKeepDims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Sage.Payload

open Cert.KernelIdeal Cert.KernelIdeal.Gen Idealize.ShloMosaic Idealize.ShloMosaic.ValueIdx

/-- The block product's record, named once. -/
abbrev D := dot_S5000x128_S128x128_S5000x128_1_0_0_1_n_n

theorem lhs_row (i : S5000x128.Idx) (k : D.contr.Idx) : (D.lhsIdx i k 0).val = (i 0).val := by
  unfold DotDims.lhsIdx
  rw [dif_neg (show ¬(0 : Fin S5000x128.rank) ∈ D.lhsBatch by decide), dif_pos (show (0 : Fin S5000x128.rank) ∈ D.lhsNonContracting by decide)]
  rfl

theorem lhs_col (i : S5000x128.Idx) (k : D.contr.Idx) : (D.lhsIdx i k 1).val = (k ⟨0, by decide⟩).val :=
  D.lhsIdx_val_of_single rfl i k

theorem rhs_row (i : S5000x128.Idx) (k : D.contr.Idx) : (D.rhsIdx i k 0).val = (k ⟨0, by decide⟩).val :=
  D.rhsIdx_val_of_single rfl i k

theorem rhs_col (i : S5000x128.Idx) (k : D.contr.Idx) : (D.rhsIdx i k 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A `[5000,128] × [128,128]` product into a zero accumulator, at `(p, q)`: the sum over the contracted channel. -/
theorem matmul_at (L : FVec Ideal S5000x128 .bf16) (R : FVec Ideal S128x128 .bf16) (p : Fin 5000) (q : Fin 128) :
    matmul D none L R (constant S5000x128 .f32 0x00000000#32) (ix2 p q) = ∑ k : Fin 128, L (ix2 p k) * R (ix2 k q) := by
  simp only [matmul]
  rw [Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : D.lhsIdx (ix2 p q) ((ValueIdx.contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((ValueIdx.contrEquiv1 D 128 rfl rfl).symm k) = ix2 k q := funext fun a => Fin.ext (by
    match a with
    | ⟨0, _⟩ => exact (rhs_row _ _).trans hk
    | ⟨1, _⟩ => exact rhs_col _ _)
  rw [el, er]

/-- The stored value at row `p`, channel `q` of the block, from the six loaded blocks. -/
theorem pay_apply (x0 : Vec Ideal S5000x128 .f32) (x2 : Vec Ideal S5000x1 .f32) (x6 : Vec Ideal S5000x128 .f32)
    (x9 x12 : Vec Ideal S128x128 .f32) (x18 : Vec Ideal S1x128 .f32) (p : Fin 5000) (q : Fin 128) :
    k0_pay1 (F := Ideal) x0 x2 x6 x9 x12 x18 (ix2 p q) = Cert.Sage.scaledProj (a := 5000) x6 x0 x2 x9 x12 x18 p q := by
  unfold k0_pay1 Cert.Sage.scaledProj
  refine congrArg₂ (· + ·) (congrArg₂ (· + ·) ?_ ?_) ?_
  · refine (matmul_at _ _ p q).trans ?_
    refine Finset.sum_congr rfl fun k _ => ?_
    show x6 (ix2 p k) * shapeCast S128x128 x9 shapeCasts_S128x128_S128x128 (ix2 k q) = _
    rw [shapeCast_self]
  · refine (matmul_at _ _ p q).trans ?_
    refine Finset.sum_congr rfl fun k _ => ?_
    show (shapeCast S5000x128 x0 shapeCasts_S5000x128_S5000x128 (ix2 p k)
        * broadcastTo S5000x128 (shapeCast S5000x1 x2 shapeCasts_S5000x1_S5000x1) broadcasts_S5000x1_S5000x128 (ix2 p k))
        * shapeCast S128x128 x12 shapeCasts_S128x128_S128x128 (ix2 k q) = _
    rw [shapeCast_self, shapeCast_self, shapeCast_self, KeepDims.broadcastTo_a1_ab_apply]
  · show broadcastTo S5000x128 (shapeCast S1x128 x18 shapeCasts_S1x128_S1x128) broadcasts_S1x128_S5000x128 (ix2 p q) = _
    rw [shapeCast_self, broadcastTo_1b_ab_apply]

end Cert.Sage.Payload

end
-- ==== Proof.SageReads.lean ====
/-
  Each operand's block at a grid point, as entries of its array.

  The grid has twenty points; at point `t` the feature matrix, the neighbour sums and the reciprocal column are staged
  at block row `t` (rows `5000·t … 5000·t + 4999`), the two weight matrices and the bias row whole, and the result is
  written back at block row `t`. `whole` is the result as one function of the arrays the region finds: the scaled form of
  the layer at every node and channel.
-/
import proofs.«128249_j7086696039141_2_alg».proof.Proof.Gen.KernelIdeal.Value
import proofs.«128249_j7086696039141_2_alg».proof.Proof.SagePayload

noncomputable section

open Idealize.ShloMosaic Idealize.ShloMosaic.TcCoe Idealize.SL.Sem
open Idealize.ShloMosaic.Pipeline (Dat)

namespace Cert.Sage.Reads

open Cert.KernelIdeal Cert.KernelIdeal.Gen Cert.KernelIdeal.Value Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The result as one function of the arrays the region finds: the scaled form at every node and channel. -/
def whole (c : Dev nD) : S100000x128.Idx → EReal := fun i =>
  Cert.Sage.scaledProj (a := 100000) (V m c main_arg0) (V m c main_v9) (V m c main_v18) (V m c main_v19) (V m c main_v20)
    (V m c main_v21) (i 0) (i 1)

/-- The printed index maps over the grid: the three row-blocked operands and the result sit at block row `t`, block
    column `0`; the resident operands at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## A window's block at a point, as entries of the array it is cut from

  Stated for ANY contents `A` of the array: only the window's index map matters. -/

theorem blk0 (t : Fin cfg0.N) (A : S100000x128.Idx → EReal) (y : S5000x128.Idx) (i : S100000x128.Idx)
    (h0 : (i 0).val = t.val * 5000 + (y 0).val) (h1 : (i 1).val = (y 1).val) :
    ((cfg0.win 0).blk t).view.read (Elt Ideal) A y = A i := by
  show A (((cfg0.win 0).blk t).view.emb y) = A i
  refine congrArg A (funext fun a => Fin.ext ?_)
  obtain ⟨e0, e1, -⟩ := idx_facts t
  match a with
  | ⟨0, _⟩ => show win0_0.index t (0 : Fin 2) * 5000 + 1 * (y 0).val = (i 0).val; omega
  | ⟨1, _⟩ => show win0_0.index t (1 : Fin 2) * 128 + 1 * (y 1).val = (i 1).val; omega

theorem blk1 (t : Fin cfg0.N) (A : S100000x128.Idx → EReal) (y : S5000x128.Idx) (i : S100000x128.Idx)
    (h0 : (i 0).val = t.val * 5000 + (y 0).val) (h1 : (i 1).val = (y 1).val) :
    ((cfg0.win 1).blk t).view.read (Elt Ideal) A y = A i := by
  show A (((cfg0.win 1).blk t).view.emb y) = A i
  refine congrArg A (funext fun a => Fin.ext ?_)
  obtain ⟨-, -, e0, e1, -⟩ := idx_facts t
  match a with
  | ⟨0, _⟩ => show win0_1.index t (0 : Fin 2) * 5000 + 1 * (y 0).val = (i 0).val; omega
  | ⟨1, _⟩ => show win0_1.index t (1 : Fin 2) * 128 + 1 * (y 1).val = (i 1).val; omega

theorem blk2 (t : Fin cfg0.N) (A : S100000x1.Idx → EReal) (y : S5000x1.Idx) (i : S100000x1.Idx)
    (h0 : (i 0).val = t.val * 5000 + (y 0).val) (h1 : (i 1).val = (y 1).val) :
    ((cfg0.win 2).blk t).view.read (Elt Ideal) A y = A i := by
  show A (((cfg0.win 2).blk t).view.emb y) = A i
  refine congrArg A (funext fun a => Fin.ext ?_)
  obtain ⟨-, -, -, -, e0, e1, -⟩ := idx_facts t
  match a with
  | ⟨0, _⟩ => show win0_2.index t (0 : Fin 2) * 5000 + 1 * (y 0).val = (i 0).val; omega
  | ⟨1, _⟩ => show win0_2.index t (1 : Fin 2) * 1 + 1 * (y 1).val = (i 1).val; omega

theorem blk3 (t : Fin cfg0.N) (A : S128x128.Idx → EReal) (y : S128x128.Idx) :
    ((cfg0.win 3).blk t).view.read (Elt Ideal) A y = A y := by
  show A (((cfg0.win 3).blk t).view.emb y) = A y
  refine congrArg A (funext fun a => Fin.ext ?_)
  obtain ⟨-, -, -, -, -, -, e0, e1, -⟩ := idx_facts t
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk4 (t : Fin cfg0.N) (A : S128x128.Idx → EReal) (y : S128x128.Idx) :
    ((cfg0.win 4).blk t).view.read (Elt Ideal) A y = A y := by
  show A (((cfg0.win 4).blk t).view.emb y) = A y
  refine congrArg A (funext fun a => Fin.ext ?_)
  obtain ⟨-, -, -, -, -, -, -, -, e0, e1, -⟩ := idx_facts t
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem blk5 (t : Fin cfg0.N) (A : S1x128.Idx → EReal) (y : S1x128.Idx) :
    ((cfg0.win 5).blk t).view.read (Elt Ideal) A y = A y := by
  show A (((cfg0.win 5).blk t).view.emb y) = A y
  refine congrArg A (funext fun a => Fin.ext ?_)
  obtain ⟨-, -, -, -, -, -, -, -, -, -, e0, e1, -⟩ := idx_facts t
  match a with
  | ⟨0, _⟩ => show win0_5.index t (0 : Fin 2) * 1 + 1 * (y 0).val = (y 0).val; omega
  | ⟨1, _⟩ => show win0_5.index t (1 : Fin 2) * 128 + 1 * (y 1).val = (y 1).val; omega

/-! ## Each operand's block at a point, as entries of what the region finds -/

theorem read_feat (c : Dev nD) (t : Fin cfg0.N) (y : S5000x128.Idx) (i : S100000x128.Idx)
    (h0 : (i 0).val = t.val * 5000 + (y 0).val) (h1 : (i 1).val = (y 1).val) :
    iblk m c 0 t y = V m c main_arg0 i := blk0 t (V m c main_arg0) y i h0 h1

theorem read_ns (c : Dev nD) (t : Fin cfg0.N) (y : S5000x128.Idx) (i : S100000x128.Idx)
    (h0 : (i 0).val = t.val * 5000 + (y 0).val) (h1 : (i 1).val = (y 1).val) :
    iblk m c 1 t y = V m c main_v9 i := blk1 t (V m c main_v9) y i h0 h1

theorem read_inv (c : Dev nD) (t : Fin cfg0.N) (y : S5000x1.Idx) (i : S100000x1.Idx)
    (h0 : (i 0).val = t.val * 5000 + (y 0).val) (h1 : (i 1).val = (y 1).val) :
    iblk m c 2 t y = V m c main_v18 i := blk2 t (V m c main_v18) y i h0 h1

theorem read_ws (c : Dev nD) (t : Fin cfg0.N) (y : S128x128.Idx) : iblk m c 3 t y = V m c main_v19 y :=
  blk3 t (V m c main_v19) y

theorem read_wn (c : Dev nD) (t : Fin cfg0.N) (y : S128x128.Idx) : iblk m c 4 t y = V m c main_v20 y :=
  blk4 t (V m c main_v20) y

theorem read_bias (c : Dev nD) (t : Fin cfg0.N) (y : S1x128.Idx) : iblk m c 5 t y = V m c main_v21 y :=
  blk5 t (V m c main_v21) y

end Cert.Sage.Reads

end
-- ==== Proof.SageBlocks.lean ====
/-
  From blocks to the whole array.

  What point `t` writes back is rows `5000·t … 5000·t + 4999` of `whole`: row `p` of the body's result depends only on
  row `p` of the staged operand blocks, which are rows `5000·t + p` of the operands' arrays, and on the resident
  operands. The twenty row blocks cover the result array (row `r` lies in the block of point `r / 5000`), so after the
  run the result array is `whole`.
-/
import proofs.«128249_j7086696039141_2_alg».proof.Proof.SageReads

noncomputable section

open Idealize.ShloMosaic Idealize.ShloMosaic.TcCoe Idealize.SL.Sem
open Idealize.ShloMosaic.Pipeline (Dat)

namespace Cert.Sage.Blocks

open Cert.KernelIdeal Cert.KernelIdeal.Gen Cert.KernelIdeal.Value Cert.Sage.Reads Idealize.ShloMosaic.ValueIdx

variable (m : (ℓ : Loc nD τ sig) → Buf (Elt Ideal) ℓ) (ρ : Dev nD → PrngReg)

/-! ## What a point writes back -/

/-- A block `X` whose row `p` is row `5000·t + p` of an array `W` is what the result's window reads of `W` at point `t`. -/
theorem cut_eq_read (t : Fin cfg0.N) (X : S5000x128.Idx → EReal) (W : S100000x128.Idx → EReal)
    (h : ∀ (p : Fin 5000) (q : Fin 128) (P : Fin 100000), P.val = t.val * 5000 + p.val → X (ix2 p q) = W (ix2 P q)) :
    (cfg0.win 6).cut (grid0.coords t) X = ((cfg0.win 6).blk t).view.read (Elt Ideal) W := by
  funext j
  obtain ⟨p, q, rfl⟩ : ∃ (p : Fin 5000) (q : Fin 128), j = ix2 p q := ⟨j 0, j 1, eq_ix2 j⟩
  show X (ix2 p q) = W (((cfg0.win 6).blk t).view.emb (ix2 p q))
  have hN : cfg0.N = 20 := N_0
  have ht : t.val < 20 := lt_of_lt_of_eq t.isLt hN
  obtain ⟨-, -, -, -, -, -, -, -, -, -, -, -, e0, e1⟩ := idx_facts t
  have hemb : ((cfg0.win 6).blk t).view.emb (ix2 p q) = ix2 (⟨t.val * 5000 + p.val, by omega⟩ : Fin 100000) q :=
    funext fun a => Fin.ext (by
      match a with
      | ⟨0, _⟩ => show win0_6.index t (0 : Fin 2) * 5000 + 1 * p.val = t.val * 5000 + p.val; omega
      | ⟨1, _⟩ => show win0_6.index t (1 : Fin 2) * 128 + 1 * q.val = q.val; omega)
  rw [hemb]
  exact h p q _ rfl

/-- Point `t` writes back rows `5000·t …` of `whole`. -/
theorem flushed_eq (c : Dev nD) (t : Fin cfg0.N) :
    (dats m 0 c).flushed 6 t = ((cfg0.win 6).blk t).view.read (Elt Ideal) (whole m c) := by
  rw [Value.flushed6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  refine cut_eq_read t _ _ fun p q P hP => ?_
  refine (Cert.Sage.Payload.pay_apply _ _ _ _ _ _ p q).trans ?_
  unfold whole
  exact Cert.Sage.scaledProj_rows (iblk m c 0 t) (iblk m c 1 t) (iblk m c 2 t)
    (V m c main_arg0) (V m c main_v9) (V m c main_v18)
    (iblk m c 3 t) (iblk m c 4 t) (V m c main_v19) (V m c main_v20) (iblk m c 5 t) (V m c main_v21) p P q
    (fun k => read_feat m c t (ix2 p k) (ix2 P k) hP rfl) (fun k => read_ns m c t (ix2 p k) (ix2 P k) hP rfl)
    (read_inv m c t (ix2 p (0 : Fin 1)) (ix2 P (0 : Fin 1)) hP rfl)
    (fun k => read_ws m c t (ix2 k q)) (fun k => read_wn m c t (ix2 k q)) (read_bias m c t (ix2 (0 : Fin 1) q))

/-! ## The twenty row blocks cover the result -/

theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v22).slice (win0_6.rect t)).set ↔ _
  rw [View.set_slice_whole, Rect.mem_set_unit]
  exact Iff.rfl

/-- Row `r` is in the block of point `r / 5000`. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  have hlt : (i 0).val / 5000 < cfg0.N := by rw [hN]; omega
  refine ⟨⟨(i 0).val / 5000, hlt⟩, flush0_6 _, ?_⟩
  rw [mem_blk]
  obtain ⟨-, -, -, -, -, -, -, -, -, -, -, -, e0, e1⟩ := idx_facts ⟨(i 0).val / 5000, hlt⟩
  have e0' : win0_6.index ⟨(i 0).val / 5000, hlt⟩ (0 : Fin 2) = (i 0).val / 5000 := e0
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    omega

/-- After the run the result array is `whole`. -/
theorem final (c : Dev nD) : (dats m 0 c).arrAt 6 cfg0.N = whole m c :=
  (dats m 0 c).arrAt_eq_of_cover 6 (whole m c) (fun t _ => flushed_eq m c t) cover

/-- The kernel's run, read: the result array at `whole`, the arguments unchanged. -/
theorem run : θ_run defs (onTc (τ := τ) (main (F := Ideal))) ⟨m, fun _ => 0, ρ⟩ fun r => ∀ c : Dev nD,
      r.2.mem ((c : Thread nD τ).loc main_v22) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.Sage.Blocks

end
-- ==== Proof.SageHost.lean ====
/-
  The arrays the region finds, as functions of the program's arguments.

  Before the region the program computes, from the feature matrix and the two edge lists: the neighbour sums
  (`neighSum`: every edge adds its source node's feature row into its destination node's row; a negative source index
  is read from the end), the in-degrees (`degree`: every edge adds one at its destination) raised to at least one
  (`degMax`), and the column of their reciprocals; it transposes the two weight matrices and lays the bias out as one
  row. Read at an entry: the column holds `1 / degMax`, the bias row holds the bias, and `degMax` is at least one.
-/
import proofs.«128249_j7086696039141_2_alg».proof.Proof.Gen.KernelIdeal.Frame
import proofs.«128249_j7086696039141_2_alg».proof.Proof.LibKeepDims
import Idealize.ShloMosaic.Lib.StableHlo.Run
import Idealize.ShloMosaic.Lib.IdealHost
import Idealize.ShloMosaic.Lib.ValueIdx
import Idealize.ShloMosaic.Lib.ValueLayout
import Idealize.ShloMosaic.Lib.Pipeline.Value

noncomputable section

open Idealize.ShloMosaic Idealize.ShloMosaic.TcCoe Idealize.SL.Sem Idealize.ShloMosaic.StableHlo

namespace Cert.Sage.Host

open Cert.KernelIdeal Cert.KernelIdeal.Gen Idealize.ShloMosaic.ValueIdx

variable (m : (ℓ : Loc nD τ sig) → Buf (Elt Ideal) ℓ)

/-- The sum, per destination node, of the source nodes' feature rows over the edges. -/
def neighSum (x0 : FVec Ideal S100000x128 .f32) (x4 x5 : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x5)
    (Host.gather gather_S100000x128_S1600000x1_S1600000x128_1_0_n_n_0_1_1128 x0
      (broadcastInDim S1600000x1 ![0] bcast_S1600000_S1600000x1_0
        (select (cmpi .slt x4 (broadcastInDim S1600000 ![] bcast_S_S1600000 (constantI S_ 32 0#32)))
          (addi x4 (broadcastInDim S1600000 ![] bcast_S_S1600000 (constantI S_ 32 100000#32))) x4)))

/-- The number of edges into each node. -/
def degree (x5 : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 x5)
    (broadcastInDim S1600000 ![] bcast_S_S1600000 (constant (F := Ideal) S_ .f32 0x3F800000#32))

/-- One at every node. -/
def ones : FVec Ideal S100000 .f32 :=
  broadcastInDim S100000 ![] bcast_S_S100000 (constant (F := Ideal) S_ .f32 0x3F800000#32)

/-- The in-degree raised to at least one. -/
def degMax (x5 : IVec S1600000 32) : FVec Ideal S100000 .f32 :=
  maximumf (F := Ideal) (degree x5) ones

/-- The reciprocals `1 / degMax`, one per node. -/
def recip (x5 : IVec S1600000 32) : FVec Ideal S100000 .f32 :=
  Host.divf (F := Ideal) ones (degMax x5)

/-! ## The region's operands -/

theorem V_ns (c : Dev nD) : V m c main_v9
    = neighSum (m ((c : Thread nD τ).loc main_arg0)) (m ((c : Thread nD τ).loc main_arg4)) (m ((c : Thread nD τ).loc main_arg5)) := by
  dsimp only [V, hostOps0]
  after_results
  unfold neighSum
  rfl

theorem V_inv (c : Dev nD) : V m c main_v18
    = shapeCast S100000x1 (recip (m ((c : Thread nD τ).loc main_arg5))) shapeCasts_S100000_S100000x1 := by
  dsimp only [V, hostOps0]
  after_results
  unfold recip degMax degree ones
  rfl

theorem V_ws (c : Dev nD) : V m c main_v19
    = transpose S128x128 [1, 0] (m ((c : Thread nD τ).loc main_arg1)) transposes_S128x128_S128x128_1_0 := by
  dsimp only [V, hostOps0]
  after_results

theorem V_wn (c : Dev nD) : V m c main_v20
    = transpose S128x128 [1, 0] (m ((c : Thread nD τ).loc main_arg2)) transposes_S128x128_S128x128_1_0 := by
  dsimp only [V, hostOps0]
  after_results

theorem V_b2 (c : Dev nD) : V m c main_v21
    = shapeCast S1x128 (m ((c : Thread nD τ).loc main_arg3)) shapeCasts_S128_S1x128 := by
  dsimp only [V, hostOps0]
  after_results
  rfl

/-! ## Read at an entry -/

/-- The host quotient of two arrays, at an entry. -/
theorem hostDivf_apply {s : Shape} {φ : FTy} (a b : FVec Ideal s φ) (i : s.Idx) :
    Host.divf (F := Ideal) a b i = Ideal.div (a i) (b i) := rfl

theorem ones_apply (p : Fin 100000) : ones (ix1 p) = 1 := by
  unfold ones
  rw [broadcastInDim_apply _ bcast_S_S100000 (constant (F := Ideal) S_ .f32 0x3F800000#32) (ix1 p) (fun a => a.elim0) (fun a => a.elim0),
    constant_apply]
  exact Ideal.ofBits_one_f32

/-- The raised degree is at least one. -/
theorem one_le_degMax (x5 : IVec S1600000 32) (p : Fin 100000) : 1 ≤ degMax x5 (ix1 p) := by
  unfold degMax
  rw [maximumf_apply, ones_apply]
  exact le_max_right _ _

/-- The column of reciprocals at row `P`. -/
theorem inv_apply (x5 : IVec S1600000 32) (P : Fin 100000) :
    shapeCast S100000x1 (recip x5) shapeCasts_S100000_S100000x1 (ix2 P (0 : Fin 1)) = Ideal.div 1 (degMax x5 (ix1 P)) := by
  rw [KeepDims.shapeCast_a_a1_apply]
  unfold recip
  rw [hostDivf_apply, ones_apply]

/-- The bias row at channel `q`. -/
theorem b2_apply (x3 : FVec Ideal S128 .f32) (q : Fin 128) :
    shapeCast S1x128 x3 shapeCasts_S128_S1x128 (ix2 (0 : Fin 1) q) = x3 (ix1 q) :=
  shapeCast_a_1a_apply x3 shapeCasts_S128_S1x128 0 q

end Cert.Sage.Host

end
-- ==== Proof.SageRef.lean ====
/-
  The reference, read at one entry.

  The reference divides the neighbour sums by the raised in-degree (spread from a column over the 128 channels),
  multiplies the quotient and the feature matrix with the transposed weight matrices (each product the sum over the
  128 contracted channels), adds the two products and then the bias spread over the rows. At node `p`, channel `q`
  this is `meanProj` of the arguments, of the neighbour sums and of the raised in-degrees.
-/
import proofs.«128249_j7086696039141_2_alg».proof.Proof.Gen.ReferenceIdeal.Read
import proofs.«128249_j7086696039141_2_alg».proof.Proof.SageSpec

noncomputable section

open scoped BigOperators

namespace Cert.Sage.Ref

open Cert.ReferenceIdeal Cert.ReferenceIdeal.Gen Cert.ReferenceIdeal.Read Idealize.ShloMosaic Idealize.ShloMosaic.ValueIdx

/-! The index functions of the reference's stages, at coordinates. -/

theorem lidx20 (p : Fin 100000) (q k : Fin 128) : lidx_main_v20 (ix2 p q) k = ix2 p k :=
  funext fun a => Fin.ext (by match a with | ⟨0, _⟩ => rfl | ⟨1, _⟩ => rfl)

theorem ridx20 (p : Fin 100000) (q k : Fin 128) : ridx_main_v20 (ix2 p q) k = ix2 k q :=
  funext fun a => Fin.ext (by match a with | ⟨0, _⟩ => rfl | ⟨1, _⟩ => rfl)

theorem lidx22 (p : Fin 100000) (q k : Fin 128) : lidx_main_v22 (ix2 p q) k = ix2 p k :=
  funext fun a => Fin.ext (by match a with | ⟨0, _⟩ => rfl | ⟨1, _⟩ => rfl)

theorem ridx22 (p : Fin 100000) (q k : Fin 128) : ridx_main_v22 (ix2 p q) k = ix2 k q :=
  funext fun a => Fin.ext (by match a with | ⟨0, _⟩ => rfl | ⟨1, _⟩ => rfl)

theorem idx_deg (p : Fin 100000) (k : Fin 128) : idx_main_v16 (idx_main_v17 (ix2 p k)) = ix1 p :=
  funext fun a => Fin.ext (by match a with | ⟨0, _⟩ => rfl)

theorem idx_bias (p : Fin 100000) (q : Fin 128) : idx_main_v24 (idx_main_v25 (ix2 p q)) = ix1 q :=
  funext fun a => Fin.ext (by match a with | ⟨0, _⟩ => rfl)

/-- The reference's result at node `p`, channel `q`. -/
theorem result_apply (x0 : (⟨S100000x128, .f32⟩ : BufTy).Contents (Elt Ideal)) (x1 x2 : (⟨S128x128, .f32⟩ : BufTy).Contents (Elt Ideal))
    (x3 : (⟨S128, .f32⟩ : BufTy).Contents (Elt Ideal)) (x4 x5 : (⟨S1600000, .i32⟩ : BufTy).Contents (Elt Ideal))
    (p : Fin 100000) (q : Fin 128) :
    val_main_v26 (F := Ideal) x0 x1 x2 x3 x4 x5 (ix2 p q)
      = Cert.Sage.meanProj (a := 100000) x0 (val_main_v9 (F := Ideal) x0 x4 x5) (val_main_v15 (F := Ideal) x5)
          (val_main_v21 (F := Ideal) x1) (val_main_v19 (F := Ideal) x2) x3 p q := by
  rw [val_main_v26_apply, val_main_v23_apply, val_main_v22_apply, val_main_v20_apply, val_main_v25_apply, val_main_v24_apply]
  unfold Cert.Sage.meanProj
  rw [Ideal.addf_def, Ideal.addf_def]
  refine congrArg₂ (· + ·) (congrArg₂ (· + ·) ?_ ?_) ?_
  · refine Finset.sum_congr rfl fun k _ => ?_
    rw [lidx22, ridx22]
  · refine Finset.sum_congr rfl fun k _ => ?_
    rw [lidx20, ridx20, val_main_v18_apply, val_main_v17_apply, val_main_v16_apply, idx_deg, Ideal.hostDivf_def]
  · rw [idx_bias]

end Cert.Sage.Ref

end
-- ==== Proof.SageBridge.lean ====
/-
  The kernel's result is the mean form of the program's arguments, and the two programs compute the same neighbour
  sums and raised in-degrees.

  The array the region writes (`whole`) is the scaled form of the operands the region finds. Those operands are: the
  feature matrix itself; the neighbour sums; the column of reciprocals `1 / degMax`; the two transposed weight matrices;
  the bias laid out as one row. Since `degMax` is at least one, scaling by its reciprocal is dividing by it, so `whole`
  is the mean form. The reference computes its neighbour sums and raised in-degrees by the same operations of the same
  arguments.
-/
import proofs.«128249_j7086696039141_2_alg».proof.Proof.SageReads
import proofs.«128249_j7086696039141_2_alg».proof.Proof.SageHost
import proofs.«128249_j7086696039141_2_alg».proof.Proof.SageRef

noncomputable section

open Idealize.ShloMosaic Idealize.ShloMosaic.TcCoe Idealize.SL.Sem

namespace Cert.Sage.Bridge

open Cert.KernelIdeal Cert.KernelIdeal.Gen Idealize.ShloMosaic.ValueIdx

variable (m : (ℓ : Loc nD τ sig) → Buf (Elt Ideal) ℓ)

/-- The kernel's result at node `P`, channel `q`: the mean form of the arguments. -/
theorem whole_apply (c : Dev nD) (P : Fin 100000) (q : Fin 128) :
    Cert.Sage.Reads.whole m c (ix2 P q)
      = Cert.Sage.meanProj (a := 100000) (m ((c : Thread nD τ).loc main_arg0))
          (Cert.Sage.Host.neighSum (m ((c : Thread nD τ).loc main_arg0)) (m ((c : Thread nD τ).loc main_arg4)) (m ((c : Thread nD τ).loc main_arg5)))
          (Cert.Sage.Host.degMax (m ((c : Thread nD τ).loc main_arg5)))
          (transpose S128x128 [1, 0] (m ((c : Thread nD τ).loc main_arg1)) transposes_S128x128_S128x128_1_0)
          (transpose S128x128 [1, 0] (m ((c : Thread nD τ).loc main_arg2)) transposes_S128x128_S128x128_1_0)
          (m ((c : Thread nD τ).loc main_arg3)) P q := by
  unfold Cert.Sage.Reads.whole
  rw [V_main_arg0, Cert.Sage.Host.V_ns, Cert.Sage.Host.V_inv, Cert.Sage.Host.V_ws, Cert.Sage.Host.V_wn, Cert.Sage.Host.V_b2]
  exact Cert.Sage.scaled_eq_mean _ _ _ _ _ _ _ _ P q (Cert.Sage.Host.inv_apply _ P) (Cert.Sage.Host.one_le_degMax _ P)
    (Cert.Sage.Host.b2_apply _ q)

/-- Both programs form the neighbour sums by the same operations. -/
theorem neighSum_eq (x0 : FVec Ideal S100000x128 .f32) (x4 x5 : IVec S1600000 32) :
    Cert.Sage.Host.neighSum x0 x4 x5 = Cert.ReferenceIdeal.Read.val_main_v9 (F := Ideal) x0 x4 x5 := by
  unfold Cert.Sage.Host.neighSum Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst
  rfl

/-- Both programs form the raised in-degrees by the same operations. -/
theorem degMax_eq (x5 : IVec S1600000 32) :
    Cert.Sage.Host.degMax x5 = Cert.ReferenceIdeal.Read.val_main_v15 (F := Ideal) x5 := by
  unfold Cert.Sage.Host.degMax Cert.Sage.Host.degree Cert.Sage.Host.ones Cert.ReferenceIdeal.Read.val_main_v15
    Cert.ReferenceIdeal.Read.val_main_v14 Cert.ReferenceIdeal.Read.val_main_v13 Cert.ReferenceIdeal.Read.val_main_v12
    Cert.ReferenceIdeal.Read.val_main_v11 Cert.ReferenceIdeal.Read.val_main_v10 Cert.ReferenceIdeal.Read.val_main_cst_1
    Cert.ReferenceIdeal.Read.val_main_cst_2 Cert.ReferenceIdeal.Read.val_main_cst_3
  rfl

/-- Both programs transpose the weight matrices by the same operation. -/
theorem ws_eq (x1 : FVec Ideal S128x128 .f32) :
    transpose S128x128 [1, 0] x1 transposes_S128x128_S128x128_1_0 = Cert.ReferenceIdeal.Read.val_main_v21 (F := Ideal) x1 := by
  unfold Cert.ReferenceIdeal.Read.val_main_v21
  rfl

theorem wn_eq (x2 : FVec Ideal S128x128 .f32) :
    transpose S128x128 [1, 0] x2 transposes_S128x128_S128x128_1_0 = Cert.ReferenceIdeal.Read.val_main_v19 (F := Ideal) x2 := by
  unfold Cert.ReferenceIdeal.Read.val_main_v19
  rfl

/-- The kernel's result array is the reference's result of the same arguments. -/
theorem whole_eq_ref (c : Dev nD) :
    Cert.Sage.Reads.whole m c
      = Cert.ReferenceIdeal.Read.val_main_v26 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  funext i
  obtain ⟨P, q, rfl⟩ : ∃ (P : Fin 100000) (q : Fin 128), i = ix2 P q := ⟨i 0, i 1, eq_ix2 i⟩
  rw [whole_apply, Cert.Sage.Ref.result_apply, neighSum_eq, degMax_eq, ws_eq, wn_eq]

end Cert.Sage.Bridge

end
-- ==== Proof.lean ====
/-
  A mean-aggregating graph layer: kernel against reference, on the extended reals.

  Both programs gather every edge's source feature row, add it into the edge's destination node (the neighbour sums),
  count the edges into each node, and raise that count to at least one. The reference divides the neighbour sums by the
  raised count, projects the quotient and the features with the two weight matrices, and adds the bias. The kernel
  program instead forms the reciprocal of the raised count, and its tiled body (twenty blocks of 5000 nodes) multiplies
  the neighbour sums by that reciprocal before the same two projections and the bias. A number that is at least one is
  not zero, so multiplying by its reciprocal is dividing by it on the extended reals, whatever the other factor; the
  products into a zero accumulator and the host's contractions are the same sums over the 128 channels; a change of float
  format is the identity. So the two results agree entry by entry. The precondition is not needed for that.

  The three frames: the two kernel programs' by the generated frame certificates, the reference's by its generated run.
  The idealization rewrote nothing, so `preserves` is trivial.
-/
import proofs.«128249_j7086696039141_2_alg».proof.Defs
import proofs.«128249_j7086696039141_2_alg».proof.Proof.Gen.Kernel
import proofs.«128249_j7086696039141_2_alg».proof.Proof.Gen.Kernel.Frame
import proofs.«128249_j7086696039141_2_alg».proof.Proof.Gen.KernelIdeal
import proofs.«128249_j7086696039141_2_alg».proof.Proof.Gen.KernelIdeal.Frame
import proofs.«128249_j7086696039141_2_alg».proof.Proof.Gen.KernelIdeal.Value
import proofs.«128249_j7086696039141_2_alg».proof.Proof.Gen.ReferenceIdeal
import proofs.«128249_j7086696039141_2_alg».proof.Proof.Gen.ReferenceIdeal.Run
import proofs.«128249_j7086696039141_2_alg».proof.Proof.Gen.ReferenceIdeal.Read
import proofs.«128249_j7086696039141_2_alg».proof.Proof.Gen.Pre_finite_inputs
import proofs.«128249_j7086696039141_2_alg».proof.Proof.SageBlocks
import proofs.«128249_j7086696039141_2_alg».proof.Proof.SageBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the scaled form of what its region finds, which is the reference's result of the
    same arguments; the reference's run ends at that result of arguments that agree with the kernel's. -/
theorem algebraic : Cert.algebraic_KernelIdeal_ReferenceIdeal := by
  intro m ρ m' ρ' _ hagree
  refine ⟨fun c => Cert.Sage.Reads.whole m c, Cert.Sage.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v26_eq, a0, a1, a2, a3, a4, a5]
  exact (Cert.Sage.Bridge.whole_eq_ref m c).symm

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
